-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x256 : Shape := ⟨2, ![4096, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S32768x4096 .f32) (main_arg1 : FVec F S4096x256 .f32) (main_arg2 : FVec F S256 .f32) (main_arg3 : FVec F S256x1 .f32) (main_arg4 : FVec F S1 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S32768x4096 : Shape := ⟨2, ![32768, 4096]⟩
abbrev S4096x256 : Shape := ⟨2, ![4096, 256]⟩
abbrev S256 : Shape := ⟨1, ![256]⟩
abbrev S256x1 : Shape := ⟨2, ![256, 1]⟩
abbrev S1 : Shape := ⟨1, ![1]⟩
abbrev S2048x256 : Shape := ⟨2, ![2048, 256]⟩
abbrev S1x256 : Shape := ⟨2, ![1, 256]⟩
abbrev S1x1 : Shape := ⟨2, ![1, 1]⟩
abbrev S256x128 : Shape := ⟨2, ![256, 128]⟩
abbrev S1024x2048 : Shape := ⟨2, ![1024, 2048]⟩
abbrev S8x128 : Shape := ⟨2, ![8, 128]⟩
abbrev S1024x256 : Shape := ⟨2, ![1024, 256]⟩
abbrev S1024 : Shape := ⟨1, ![1024]⟩
abbrev S1024x1 : Shape := ⟨2, ![1024, 1]⟩
abbrev S32768x1 : Shape := ⟨2, ![32768, 1]⟩

abbrev nBuf : Space → Nat
  | .hbm => 13
  | .vmem => 11
  | .smem => 0
  | _ => 0

abbrev bufTy : (tb : Table) → Fin (tcTables nBuf tb) → BufTy
  | .hbm, ⟨0, _⟩ => ⟨S32768x4096, .f32⟩
  | .hbm, ⟨1, _⟩ => ⟨S4096x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S4096x256, .bf16⟩
  | .hbm, ⟨6, _⟩ => ⟨S2048x256, .bf16⟩
  | .hbm, ⟨7, _⟩ => ⟨S2048x256, .bf16⟩
  | .hbm, ⟨8, _⟩ => ⟨S1x256, .f32⟩
  | .hbm, ⟨9, _⟩ => ⟨S1x256, .f32⟩
  | .hbm, ⟨10, _⟩ => ⟨S1x1, .f32⟩
  | .hbm, ⟨11, _⟩ => ⟨S256x128, .f32⟩
  | .hbm, ⟨12, _⟩ => ⟨S32768x1, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S2048x256, .bf16⟩
  | .local _ .vmem, ⟨5, _⟩ => ⟨S2048x256, .bf16⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S8x128, .f32⟩
  | .local _ .vmem, ⟨10, _⟩ => ⟨S8x128, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  slices_S4096x256_S2048x256_0_0 : S4096x256.Slices ![0, 0] S2048x256
  slices_S4096x256_S2048x256_2048_0 : S4096x256.Slices ![2048, 0] S2048x256
  shapeCasts_S256_S1x256 : S256.ShapeCasts S1x256
  shapeCasts_S256x1_S1x256 : S256x1.ShapeCasts S1x256
  shapeCasts_S1_S1x1 : S1.ShapeCasts S1x1
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x1_S8x128 : S1024x1.ShapeCasts S8x128
  inb_S8x128_S8x128_0_0 : ∀ a, (![0, 0] : Fin 2 → Nat) a + S8x128.size a ≤ S8x128.size a
  h_S8x128 : 0 < S8x128.numel
  shapeCasts_S256x128_S32768x1 : S256x128.ShapeCasts S32768x1
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x4096.size a
  hwx0_0 : ∀ i : grid0.Coords, EltTy.bits .f32 = 32 ∨ (Rect.block (s := S32768x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S32768x4096.size a
  hwx0_1 : ∀ i : grid0.Coords, EltTy.bits .f32 = 32 ∨ (Rect.block (s := S32768x4096) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .bf16 = 32 ∨ (Rect.block (s := S2048x256) S2048x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S256x128.size a
  hwx0_7 : ∀ i : grid0.Coords, EltTy.bits .f32 = 32 ∨ (Rect.block (s := S256x128) S8x128.size (cc0_transform_7 i) (hinb0_7 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S4096x256 : Shape := ⟨2, ![4096, 256]⟩
abbrev S256 : Shape := ⟨1, ![256]⟩
abbrev S256x1 : Shape := ⟨2, ![256, 1]⟩
abbrev S1 : Shape := ⟨1, ![1]⟩
abbrev S32768x256 : Shape := ⟨2, ![32768, 256]⟩
abbrev S1x256 : Shape := ⟨2, ![1, 256]⟩
abbrev S_ : Shape := ⟨0, ![]⟩
abbrev S32768x1 : Shape := ⟨2, ![32768, 1]⟩
abbrev S1x1 : Shape := ⟨2, ![1, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S32768x256, .f32⟩
  | .hbm, ⟨6, _⟩ => ⟨S1x256, .f32⟩
  | .hbm, ⟨7, _⟩ => ⟨S32768x256, .f32⟩
  | .hbm, ⟨8, _⟩ => ⟨S32768x256, .f32⟩
  | .hbm, ⟨9, _⟩ => ⟨S_, .f32⟩
  | .hbm, ⟨10, _⟩ => ⟨S32768x256, .f32⟩
  | .hbm, ⟨11, _⟩ => ⟨S32768x256, .f32⟩
  | .hbm, ⟨12, _⟩ => ⟨S32768x1, .f32⟩
  | .hbm, ⟨13, _⟩ => ⟨S1x1, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S32768x4096_S4096x256_S32768x256_1_0_0_1_n_n_wf : DotDims.WF S32768x4096 S4096x256 S32768x256 [1] [0] [0] [1] [] []
  dot_S32768x256_S256x1_S32768x1_1_0_0_1_n_n_wf : DotDims.WF S32768x256 S256x1 S32768x1 [1] [0] [0] [1] [] []

variable [Facts₀]

def dot_S32768x4096_S4096x256_S32768x256_1_0_0_1_n_n : DotDims S32768x4096 S4096x256 S32768x256 where
  lhsContracting := [1]
  rhsContracting := [0]
  lhsNonContracting := [0]
  rhsNonContracting := [1]
  lhsBatch := []
  rhsBatch := []
  wf := dot_S32768x4096_S4096x256_S32768x256_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf

class Facts : Prop extends Facts₀ where

variable [Facts]
-- ==== Proof.BodyBits.lean ====
/-
  The router kernel's body, point by point.

  The grid has 32 points; point t handles token rows 1024 t .. 1024 t + 1023. Each point is handed, in staging
  buffers, the two column halves of its 1024 rows of x (two windows of ONE array, the second half's block index 1
  along the columns), the two row halves of the first layer's matrix, the two [1,256] rows (first bias, second
  layer's column) and the [1,1] second bias, every one of them the SAME block at every point but for x. The body
  reads all seven whole, computes one [8,128] tile of probabilities and stores it whole. So after a point every
  input buffer still holds its block and the output buffer holds the tile computed from the seven blocks: that
  is the proof data below, and the body's triple says exactly this.
-/
import proofs.«117128_g3504693313599_cont_8to1_b_191_17_alg».proof.Proof.Gen.Kernel.Launch
import proofs.«117128_g3504693313599_cont_8to1_b_191_17_alg».proof.Proof.Gen.Kernel.Skeleton
import proofs.«117128_g3504693313599_cont_8to1_b_191_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch memory after the six host operations that cast,
    slice and reshape the weights. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the six host operations, the region, and the reshape of the result: it reduces to the region
    continued by that reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its
    block index has not moved), for any proof data over `V` whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, its
    block index has not moved), for any proof data over `V` whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, its
    block index has not moved), for any proof data over `V` whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, its
    block index has not moved), for any proof data over `V` whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, its
    block index has not moved), for any proof data over `V` whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, its
    block index has not moved), for any proof data over `V` whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (unfetched, its
    block index has not moved), for any proof data over `V` whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole-buffer rectangles the body loads and stores through. -/
abbrev rX : Rect S1024x2048 := Rect.unit (s := S1024x2048) ![0, 0] S1024x2048.size inb_S1024x2048_S1024x2048_0_0
abbrev rW : Rect S2048x256 := Rect.unit (s := S2048x256) ![0, 0] S2048x256.size inb_S2048x256_S2048x256_0_0
abbrev rRow : Rect S1x256 := Rect.unit (s := S1x256) ![0, 0] S1x256.size inb_S1x256_S1x256_0_0
abbrev rOne : Rect S1x1 := Rect.unit (s := S1x1) ![0, 0] S1x1.size inb_S1x1_S1x1_0_0
abbrev rOut : Rect S8x128 := Rect.unit (s := S8x128) ![0, 0] S8x128.size inb_S8x128_S8x128_0_0

/-- The output buffer after the body, from the seven input blocks: its one store, of the body's arithmetic on
    the loaded blocks. -/
def out7 (xa : Vec F S1024x2048 .f32) (xb : Vec F S1024x2048 .f32) (wa : Vec F S2048x256 .bf16) (wb : Vec F S2048x256 .bf16)
    (b1 : Vec F S1x256 .f32) (w2 : Vec F S1x256 .f32) (b2 : Vec F S1x1 .f32) : Vec F S8x128 .f32 :=
  View.canon [⟨rOut, k0_pay1 (View.ld xa rX) (View.ld wa rW) (View.ld xb rX) (View.ld wb rW) (View.ld b1 rRow) (View.ld w2 rRow) (View.ld b2 rOne)⟩]

/-- The one store covers the buffer. -/
theorem cover7 (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

/-! ## The body's triple -/

set_option maxHeartbeats 1000000 in
/-- The body on whole staging memrefs, the inputs' at read contents and the output's at anything, runs to the
    continuation holding the inputs' as they were and the output's at `out7` of the inputs'. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S2048x256 .bf16) (harg3 : arg3.IsWhole) (arg4 : Memref sig .tc .vmem S2048x256 .bf16) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x1 .f32) (harg7 : arg7.IsWhole) (arg8 : Memref sig .tc .vmem S8x128 .f32) (harg8 : arg8.IsWhole)
    (xa : Vec F S1024x2048 .f32) (xb : Vec F S1024x2048 .f32) (wa : Vec F S2048x256 .bf16) (wb : Vec F S2048x256 .bf16)
    (b1 : Vec F S1x256 .f32) (w2 : Vec F S1x256 .f32) (b2 : Vec F S1x1 .f32) (K : PUnit → sProp 𝕄) :
    iprop(owns (c : Thread nD τ) arg1 fullShare xa ∗ owns (c : Thread nD τ) arg2 fullShare xb
        ∗ owns (c : Thread nD τ) arg3 fullShare wa ∗ owns (c : Thread nD τ) arg4 fullShare wb
        ∗ owns (c : Thread nD τ) arg5 fullShare b1 ∗ owns (c : Thread nD τ) arg6 fullShare w2
        ∗ owns (c : Thread nD τ) arg7 fullShare b2 ∗ (∃ d, owns (c : Thread nD τ) arg8 fullShare d)
        ∗ (iprop(owns (c : Thread nD τ) arg1 fullShare xa ∗ owns (c : Thread nD τ) arg2 fullShare xb
            ∗ owns (c : Thread nD τ) arg3 fullShare wa ∗ owns (c : Thread nD τ) arg4 fullShare wb
            ∗ owns (c : Thread nD τ) arg5 fullShare b1 ∗ owns (c : Thread nD τ) arg6 fullShare w2
            ∗ owns (c : Thread nD τ) arg7 fullShare b2
            ∗ owns (c : Thread nD τ) arg8 fullShare (out7 xa xb wa wb b1 w2 b2)) -∗ K ⟨⟩))
      ⊢ wp frame (wpE (defs₀ (F := F)) Variants.none c none) E
          (cc0__router_body i arg1 harg1 arg2 harg2 arg3 harg3 arg4 harg4 arg5 harg5 arg6 harg6 arg7 harg7 arg8 harg8) K := by
  simp only [cc0__router_body_eq_skeleton]; unfold cc0__router_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover7 _)

/-! ## The pipeline's proof data -/

/-- The proof data of the pipeline on core `c`. The arrays are the region-entry contents; after the body at point
    `t` each input's buffer is at its block and the output's at `out7` of the seven blocks; the invariant is the
    untouched scoped rest and generator register; nothing is owed. The x array is read by windows 0 and 1, which
    hold it at the two halves of the full share; every other array belongs to one window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunBits.lean ====
/-
  The run of the router program around its one kernel region.

  Eight windows, but only seven arrays: windows 0 and 1 read the two column halves of the SAME array x. The
  pipeline is therefore entered with x's buffer split between the two windows, each holding it at one half of the
  full share (a reader needs no more), every other array at the full share at its one window. At the region's
  exit the one host operation left, the reshape of the [256,128] result into the [32768,1] column, runs holding
  just its source (the output window's array, whole again) and its destination; everything else is carried past
  it untouched. Read against the final state: every window's array holds what the pipeline's write-backs left,
  every other unscoped buffer what it held at the region's entry, but the column, which is the reshape of the
  result array.
-/
import proofs.«117128_g3504693313599_cont_8to1_b_191_17_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The shares at which the windows hold their arrays: x's two readers a half each, the rest whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The pipeline's arrays at contents `A`: each window's array buffer, whole, at the window's share. -/
theorem arrays_eq (c : Dev nD) (A : (w : Fin cfg0.W) → Buf (Elt F) ((cfg0.win w).arr.view.loc (c.tc : Thread nD τ))) :
    ((dats m 0 c).arrays A : sProp 𝕄)
      = iprop((((c.tc : Thread nD τ).loc main_arg0) ↦{fullShare.left} A 0) ∗ (((c.tc : Thread nD τ).loc main_arg0) ↦{fullShare.right} A 1)
          ∗ (((c.tc : Thread nD τ).loc main_v1) ↦{fullShare} A 2) ∗ (((c.tc : Thread nD τ).loc main_v2) ↦{fullShare} A 3)
          ∗ (((c.tc : Thread nD τ).loc main_v3) ↦{fullShare} A 4) ∗ (((c.tc : Thread nD τ).loc main_v4) ↦{fullShare} A 5)
          ∗ (((c.tc : Thread nD τ).loc main_v5) ↦{fullShare} A 6) ∗ (((c.tc : Thread nD τ).loc main_v6) ↦{fullShare} A 7)) := by
  have h : ((dats m 0 c).arrays A : sProp 𝕄)
      = bigSep Finset.univ fun w => (((c.tc : Thread nD τ).loc (Pipeline.arrRef spec0 w)) ↦{(dats m 0 c).share w} A w : sProp 𝕄) := by
    unfold Dat.arrays
    exact bigSep_congr fun w _ => by rw [(arr_whole0 w).set_eq_univ]
  rw [h, bigSep_W0, share0, share1, share2, share3, share4, share5, share6, share7]

/-- The seven buffers behind the eight windows' arrays, each whole at the full share. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_v1) ↦{fullShare} W main_v1)
          ∗ (((c.tc : Thread nD τ).loc main_v2) ↦{fullShare} W main_v2) ∗ (((c.tc : Thread nD τ).loc main_v3) ↦{fullShare} W main_v3)
          ∗ (((c.tc : Thread nD τ).loc main_v4) ↦{fullShare} W main_v4) ∗ (((c.tc : Thread nD τ).loc main_v5) ↦{fullShare} W main_v5)
          ∗ (((c.tc : Thread nD τ).loc main_v6) ↦{fullShare} W main_v6)) := by
  unfold Pipeline.arrBufs
  exact bigSep_eq_bigSepL_of_eq [main_arg0, main_v1, main_v2, main_v3, main_v4, main_v5, main_v6] (by decide) (by decide) _

/-- ENTRY: the seven buffers at the region-entry contents make the pipeline's arrays at their entry contents, x's
    buffer dealt to its two windows by halves. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H1, H2, H3, H4, H5, H6⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  iexact H6

/-! ## The reshape after the region -/

/-- Core `c`'s buffers at the region's exit: as at its entry, but the result array at what the write-backs left. -/
def Wexit (c : Dev nD) : Valuation τ sig (Elt F) :=
  Function.update (V0 m c) (Proc.devRef .tc main_v6) ((dats m 0 c).arrAt 7 cfg0.N)

/-- And after the reshape that follows. -/
def Wend (c : Dev nD) : Valuation τ sig (Elt F) := StableHlo.after hostOps1 (Wexit m c)

theorem Wexit_v6 (c : Dev nD) : Wexit m c (Proc.devRef .tc main_v6) = (dats m 0 c).arrAt 7 cfg0.N := by
  unfold Wexit; rw [Function.update_self]

theorem Wexit_ne (c : Dev nD) (b : Ref sig .tc) (hb : b ≠ main_v6) : Wexit m c (Proc.devRef .tc b) = V m c b := by
  unfold Wexit; rw [Function.update_of_ne (StableHlo.devRef_ne_of_ne hb)]

/-- The reshape writes the column only: any other buffer is after it what it was at the exit. -/
theorem Wend_ne (c : Dev nD) (b : Ref sig .tc) (hb : b ≠ main_v7) : Wend m c (Proc.devRef .tc b) = Wexit m c (Proc.devRef .tc b) := by
  unfold Wend
  exact StableHlo.after_of_forall_not_mem _ _ fun op hop => by
    simp only [hostOps1, List.mem_cons, List.mem_nil_iff, or_false] at hop
    subst hop
    rw [StableHlo.reshape_writes, Finset.mem_singleton]
    exact StableHlo.devRef_ne_of_ne hb

/-- Two whole buffers held at a valuation. -/
theorem held_pair (c : Dev nD) (a b : DevRef τ sig) (hab : a ≠ b) (W : Valuation τ sig (Elt F)) :
    (StableHlo.held (c.tc : Thread nD τ) {a, b} W : sProp 𝕄)
      = iprop((((c.tc : Thread nD τ).1, a) ↦{fullShare} W a) ∗ (((c.tc : Thread nD τ).1, b) ↦{fullShare} W b)) := by
  unfold StableHlo.held
  rw [bigSep_insert (by rw [Finset.mem_singleton]; exact hab), bigSep_singleton]
  rfl

/-- What bypasses the region, after the reshape: every unscoped buffer that is no window's array, at `Wend`. -/
abbrev restEnd (c : Dev nD) : sProp 𝕄 :=
  Pipeline.unscopedRest (Ix := Unit) (Name := ℕ) (U := UR sig nD τ) (Lvl := ℕ) spec0 c (fun b => Wend m c (Proc.devRef .tc b))

set_option backward.isDefEq.respectTransparency.types false in
/-- EXIT: from the boundary, the arrays at their final contents and the bypassing buffers at the entry contents,
    the reshape runs and hands back the arrays as they were and the bypassing buffers at `Wend`. -/
theorem exit_tail (𝒱₀ : Variants) (c : Dev nD) (Q' : PUnit → sProp 𝕄) :
    iprop((iprop((dats m 0 c).arrays ((dats m 0 c).arrAt · cfg0.N) ∗ restEnd m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift 𝒱₀) (c.tc : Thread nD τ) none) Set.univ
          (Pipeline.chain [StableHlo.seq hostOps1]) Q' := by
  unfold restEnd
  have hne : Proc.devRef (τ := τ) .tc main_v6 ≠ Proc.devRef .tc main_v7 := StableHlo.devRef_ne_of_ne (by decide)
  have hseq := Pipeline.wp_seqs_then (Ix := Unit) (Name := ℕ) (U := UR sig nD τ) (Lvl := ℕ) (fun q => Cfg.toPCfg (Val := Elt F) (cfgs q)) defs₀ 𝒱₀ c
    {Proc.devRef .tc main_v6, Proc.devRef .tc main_v7} [] (K := Q') [hostOps1]
    (fun ops hops op hop => by
      simp only [List.mem_cons, List.mem_nil_iff, or_false] at hops
      subst hops
      simp only [hostOps1, List.mem_cons, List.mem_nil_iff, or_false] at hop
      subst hop
      exact Finset.Subset.refl _)
    (fun ops hops op hop => by
      simp only [List.mem_cons, List.mem_nil_iff, or_false] at hops
      subst hops
      exact (List.forall_iff_forall_mem.mp hostOps1_fresh) op hop)
    (Wexit m c)
  rw [List.flatten_cons, List.flatten_nil, List.append_nil, List.map_cons, List.map_nil, List.append_nil,
    held_pair c _ _ hne, held_pair c _ _ hne, Wexit_v6, Wexit_ne m c main_v7 (by decide),
    show StableHlo.after hostOps1 (Wexit m c) = Wend m c from rfl, Wend_ne m c main_v6 (by decide), Wexit_v6,
    Pipeline.chain_nil, wp_pure] at hseq
  rw [arrays_eq, unscopedRest0_eq, unscopedRest0_eq,
    Wend_ne m c main_arg1 (by decide), Wexit_ne m c main_arg1 (by decide),
    Wend_ne m c main_arg2 (by decide), Wexit_ne m c main_arg2 (by decide),
    Wend_ne m c main_arg3 (by decide), Wexit_ne m c main_arg3 (by decide),
    Wend_ne m c main_arg4 (by decide), Wexit_ne m c main_arg4 (by decide),
    Wend_ne m c main_v0 (by decide), Wexit_ne m c main_v0 (by decide)]
  iintro ⟨Hk, Hb, ⟨A0, A1, A2, A3, A4, A5, A6, A7⟩, ⟨R1, R2, R3, R4, R5, R6⟩⟩
  ihave Hr := hseq $$ [Hb A7 R6]
  · isplitl [Hb]; · iexact Hb
    isplitl [A7]; · iexact A7
    iexact R6
  iapply Hr
  iintro ⟨Hb, A7, R6⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R1]; · iexact R1
  isplitl [R2]; · iexact R2
  isplitl [R3]; · iexact R3
  isplitl [R4]; · iexact R4
  isplitl [R5]; · iexact R5
  iexact R6

/-! ## The launch -/

/-- The program's staging cells are pairwise distinct, read at the pipelines without tables. -/
theorem cells_inj : Function.Injective (cellOf (nD := nD) (τ := τ)
    (Pipeline.pin (fun q => (cfgs q).toPCfg (Val := Elt F)) (fun q => (cfgs q).toPCfg_adm))) := cellOf_inj

/-- What the run ends in: each window's array holds what the pipeline's write-backs left, and every other unscoped
    buffer what the reshape after the region leaves. -/
def RunPost (r : PUnit × MemSt nD τ sig (Elt F)) : Prop :=
  ∀ c : Dev nD,
    (∀ w, r.2.mem ((spec0 w).arr.view.loc (c.tc : Thread nD τ)) = (dats m 0 c).arrAt w cfg0.N)
    ∧ ∀ b ∈ Pipeline.restRefs sig spec0, r.2.mem ((c.tc : Thread nD τ).loc b) = Wend m c (Proc.devRef .tc b)

set_option backward.isDefEq.respectTransparency.types false in
/-- At the compiled mesh, from any memory with zero counters: every weakly fair execution of @main terminates in a
    state satisfying `RunPost`. -/
theorem run_main : θ_run defs (onTc (τ := τ) (main (F := F))) (s₀ m ρ) (RunPost m) :=
  Pipeline.θ_run_region_pf_tail (fun q => (cfgs q).toPCfg (Val := Elt F)) (fun q => (cfgs q).toPCfg_adm) (dats m) () cells_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cells_inj)
      (Pipeline.launchToks (Pipeline.pin (fun q => (cfgs q).toPCfg (Val := Elt F)) (fun q => (cfgs q).toPCfg_adm)) cells_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cells_inj) (Pipeline.launchToks (Pipeline.pin (fun q => (cfgs q).toPCfg (Val := Elt F)) (fun q => (cfgs q).toPCfg_adm)) cells_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => restEnd m c)
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none]
      exact exit_tail m Variants.none c Q')
    (QY := fun c s => ∀ b ∈ Pipeline.restRefs sig spec0, s.mem ((c.tc : Thread nD τ).loc b) = Wend m c (Proc.devRef .tc b))
    (hY := fun c s' => by
      iintro ⟨-, HU, HSI⟩
      unfold restEnd Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

/-! ## The frame -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- In a state satisfying `RunPost` the five argument arrays are as launched. The activations, read by two
    windows, are never written by the pipeline (an input array keeps its entry contents); the other four bypass
    the region, and the reshape after it writes only the result column. -/
theorem args_kept (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(((h c).1 0).trans ((dats m 0 c).arrAt_in 0 rfl cfg0.N)).trans ((A_eq m c 0).trans (V_main_arg0 m c)),
   ((h c).2 main_arg1 (Pipeline.mem_restRefs_of main_arg1 (by decide) (by decide))).trans
      ((Wend_ne m c main_arg1 (by decide)).trans ((Wexit_ne m c main_arg1 (by decide)).trans (V_main_arg1 m c))),
   ((h c).2 main_arg2 (Pipeline.mem_restRefs_of main_arg2 (by decide) (by decide))).trans
      ((Wend_ne m c main_arg2 (by decide)).trans ((Wexit_ne m c main_arg2 (by decide)).trans (V_main_arg2 m c))),
   ((h c).2 main_arg3 (Pipeline.mem_restRefs_of main_arg3 (by decide) (by decide))).trans
      ((Wend_ne m c main_arg3 (by decide)).trans ((Wexit_ne m c main_arg3 (by decide)).trans (V_main_arg3 m c))),
   ((h c).2 main_arg4 (Pipeline.mem_restRefs_of main_arg4 (by decide) (by decide))).trans
      ((Wend_ne m c main_arg4 (by decide)).trans ((Wexit_ne m c main_arg4 (by decide)).trans (V_main_arg4 m c)))⟩

/-- THE FRAME: @main runs to its end and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.Kernel.Hand

end
-- ==== Proof.BodyIdeal.lean ====
/-
  The router kernel's body, point by point.

  The grid has 32 points; point t handles token rows 1024 t .. 1024 t + 1023. Each point is handed, in staging
  buffers, the two column halves of its 1024 rows of x (two windows of ONE array, the second half's block index 1
  along the columns), the two row halves of the first layer's matrix, the two [1,256] rows (first bias, second
  layer's column) and the [1,1] second bias, every one of them the SAME block at every point but for x. The body
  reads all seven whole, computes one [8,128] tile of probabilities and stores it whole. So after a point every
  input buffer still holds its block and the output buffer holds the tile computed from the seven blocks: that
  is the proof data below, and the body's triple says exactly this.
-/
import proofs.«117128_g3504693313599_cont_8to1_b_191_17_alg».proof.Proof.Gen.KernelIdeal.Launch
import proofs.«117128_g3504693313599_cont_8to1_b_191_17_alg».proof.Proof.Gen.KernelIdeal.Skeleton
import proofs.«117128_g3504693313599_cont_8to1_b_191_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch memory after the six host operations that cast,
    slice and reshape the weights. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the six host operations, the region, and the reshape of the result: it reduces to the region
    continued by that reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its
    block index has not moved), for any proof data over `V` whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, its
    block index has not moved), for any proof data over `V` whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, its
    block index has not moved), for any proof data over `V` whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, its
    block index has not moved), for any proof data over `V` whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, its
    block index has not moved), for any proof data over `V` whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, its
    block index has not moved), for any proof data over `V` whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (unfetched, its
    block index has not moved), for any proof data over `V` whose body leaves the block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole-buffer rectangles the body loads and stores through. -/
abbrev rX : Rect S1024x2048 := Rect.unit (s := S1024x2048) ![0, 0] S1024x2048.size inb_S1024x2048_S1024x2048_0_0
abbrev rW : Rect S2048x256 := Rect.unit (s := S2048x256) ![0, 0] S2048x256.size inb_S2048x256_S2048x256_0_0
abbrev rRow : Rect S1x256 := Rect.unit (s := S1x256) ![0, 0] S1x256.size inb_S1x256_S1x256_0_0
abbrev rOne : Rect S1x1 := Rect.unit (s := S1x1) ![0, 0] S1x1.size inb_S1x1_S1x1_0_0
abbrev rOut : Rect S8x128 := Rect.unit (s := S8x128) ![0, 0] S8x128.size inb_S8x128_S8x128_0_0

/-- The output buffer after the body, from the seven input blocks: its one store, of the body's arithmetic on
    the loaded blocks. -/
def out7 (xa : Vec F S1024x2048 .f32) (xb : Vec F S1024x2048 .f32) (wa : Vec F S2048x256 .bf16) (wb : Vec F S2048x256 .bf16)
    (b1 : Vec F S1x256 .f32) (w2 : Vec F S1x256 .f32) (b2 : Vec F S1x1 .f32) : Vec F S8x128 .f32 :=
  View.canon [⟨rOut, k0_pay1 (View.ld xa rX) (View.ld wa rW) (View.ld xb rX) (View.ld wb rW) (View.ld b1 rRow) (View.ld w2 rRow) (View.ld b2 rOne)⟩]

/-- The one store covers the buffer. -/
theorem cover7 (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

/-! ## The body's triple -/

set_option maxHeartbeats 1000000 in
/-- The body on whole staging memrefs, the inputs' at read contents and the output's at anything, runs to the
    continuation holding the inputs' as they were and the output's at `out7` of the inputs'. -/
theorem sound_kernel (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S2048x256 .bf16) (harg3 : arg3.IsWhole) (arg4 : Memref sig .tc .vmem S2048x256 .bf16) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x1 .f32) (harg7 : arg7.IsWhole) (arg8 : Memref sig .tc .vmem S8x128 .f32) (harg8 : arg8.IsWhole)
    (xa : Vec F S1024x2048 .f32) (xb : Vec F S1024x2048 .f32) (wa : Vec F S2048x256 .bf16) (wb : Vec F S2048x256 .bf16)
    (b1 : Vec F S1x256 .f32) (w2 : Vec F S1x256 .f32) (b2 : Vec F S1x1 .f32) (K : PUnit → sProp 𝕄) :
    iprop(owns (c : Thread nD τ) arg1 fullShare xa ∗ owns (c : Thread nD τ) arg2 fullShare xb
        ∗ owns (c : Thread nD τ) arg3 fullShare wa ∗ owns (c : Thread nD τ) arg4 fullShare wb
        ∗ owns (c : Thread nD τ) arg5 fullShare b1 ∗ owns (c : Thread nD τ) arg6 fullShare w2
        ∗ owns (c : Thread nD τ) arg7 fullShare b2 ∗ (∃ d, owns (c : Thread nD τ) arg8 fullShare d)
        ∗ (iprop(owns (c : Thread nD τ) arg1 fullShare xa ∗ owns (c : Thread nD τ) arg2 fullShare xb
            ∗ owns (c : Thread nD τ) arg3 fullShare wa ∗ owns (c : Thread nD τ) arg4 fullShare wb
            ∗ owns (c : Thread nD τ) arg5 fullShare b1 ∗ owns (c : Thread nD τ) arg6 fullShare w2
            ∗ owns (c : Thread nD τ) arg7 fullShare b2
            ∗ owns (c : Thread nD τ) arg8 fullShare (out7 xa xb wa wb b1 w2 b2)) -∗ K ⟨⟩))
      ⊢ wp frame (wpE (defs₀ (F := F)) Variants.none c none) E
          (cc0__router_body i arg1 harg1 arg2 harg2 arg3 harg3 arg4 harg4 arg5 harg5 arg6 harg6 arg7 harg7 arg8 harg8) K := by
  simp only [cc0__router_body_eq_skeleton]; unfold cc0__router_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover7 _)

/-! ## The pipeline's proof data -/

/-- The proof data of the pipeline on core `c`. The arrays are the region-entry contents; after the body at point
    `t` each input's buffer is at its block and the output's at `out7` of the seven blocks; the invariant is the
    untouched scoped rest and generator register; nothing is owed. The x array is read by windows 0 and 1, which
    hold it at the two halves of the full share; every other array belongs to one window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunIdeal.lean ====
/-
  The run of the router program around its one kernel region.

  Eight windows, but only seven arrays: windows 0 and 1 read the two column halves of the SAME array x. The
  pipeline is therefore entered with x's buffer split between the two windows, each holding it at one half of the
  full share (a reader needs no more), every other array at the full share at its one window. At the region's
  exit the one host operation left, the reshape of the [256,128] result into the [32768,1] column, runs holding
  just its source (the output window's array, whole again) and its destination; everything else is carried past
  it untouched. Read against the final state: every window's array holds what the pipeline's write-backs left,
  every other unscoped buffer what it held at the region's entry, but the column, which is the reshape of the
  result array.
-/
import proofs.«117128_g3504693313599_cont_8to1_b_191_17_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The shares at which the windows hold their arrays: x's two readers a half each, the rest whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The pipeline's arrays at contents `A`: each window's array buffer, whole, at the window's share. -/
theorem arrays_eq (c : Dev nD) (A : (w : Fin cfg0.W) → Buf (Elt F) ((cfg0.win w).arr.view.loc (c.tc : Thread nD τ))) :
    ((dats m 0 c).arrays A : sProp 𝕄)
      = iprop((((c.tc : Thread nD τ).loc main_arg0) ↦{fullShare.left} A 0) ∗ (((c.tc : Thread nD τ).loc main_arg0) ↦{fullShare.right} A 1)
          ∗ (((c.tc : Thread nD τ).loc main_v1) ↦{fullShare} A 2) ∗ (((c.tc : Thread nD τ).loc main_v2) ↦{fullShare} A 3)
          ∗ (((c.tc : Thread nD τ).loc main_v3) ↦{fullShare} A 4) ∗ (((c.tc : Thread nD τ).loc main_v4) ↦{fullShare} A 5)
          ∗ (((c.tc : Thread nD τ).loc main_v5) ↦{fullShare} A 6) ∗ (((c.tc : Thread nD τ).loc main_v6) ↦{fullShare} A 7)) := by
  have h : ((dats m 0 c).arrays A : sProp 𝕄)
      = bigSep Finset.univ fun w => (((c.tc : Thread nD τ).loc (Pipeline.arrRef spec0 w)) ↦{(dats m 0 c).share w} A w : sProp 𝕄) := by
    unfold Dat.arrays
    exact bigSep_congr fun w _ => by rw [(arr_whole0 w).set_eq_univ]
  rw [h, bigSep_W0, share0, share1, share2, share3, share4, share5, share6, share7]

/-- The seven buffers behind the eight windows' arrays, each whole at the full share. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_v1) ↦{fullShare} W main_v1)
          ∗ (((c.tc : Thread nD τ).loc main_v2) ↦{fullShare} W main_v2) ∗ (((c.tc : Thread nD τ).loc main_v3) ↦{fullShare} W main_v3)
          ∗ (((c.tc : Thread nD τ).loc main_v4) ↦{fullShare} W main_v4) ∗ (((c.tc : Thread nD τ).loc main_v5) ↦{fullShare} W main_v5)
          ∗ (((c.tc : Thread nD τ).loc main_v6) ↦{fullShare} W main_v6)) := by
  unfold Pipeline.arrBufs
  exact bigSep_eq_bigSepL_of_eq [main_arg0, main_v1, main_v2, main_v3, main_v4, main_v5, main_v6] (by decide) (by decide) _

/-- ENTRY: the seven buffers at the region-entry contents make the pipeline's arrays at their entry contents, x's
    buffer dealt to its two windows by halves. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H1, H2, H3, H4, H5, H6⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  iexact H6

/-! ## The reshape after the region -/

/-- Core `c`'s buffers at the region's exit: as at its entry, but the result array at what the write-backs left. -/
def Wexit (c : Dev nD) : Valuation τ sig (Elt F) :=
  Function.update (V0 m c) (Proc.devRef .tc main_v6) ((dats m 0 c).arrAt 7 cfg0.N)

/-- And after the reshape that follows. -/
def Wend (c : Dev nD) : Valuation τ sig (Elt F) := StableHlo.after hostOps1 (Wexit m c)

theorem Wexit_v6 (c : Dev nD) : Wexit m c (Proc.devRef .tc main_v6) = (dats m 0 c).arrAt 7 cfg0.N := by
  unfold Wexit; rw [Function.update_self]

theorem Wexit_ne (c : Dev nD) (b : Ref sig .tc) (hb : b ≠ main_v6) : Wexit m c (Proc.devRef .tc b) = V m c b := by
  unfold Wexit; rw [Function.update_of_ne (StableHlo.devRef_ne_of_ne hb)]

/-- The reshape writes the column only: any other buffer is after it what it was at the exit. -/
theorem Wend_ne (c : Dev nD) (b : Ref sig .tc) (hb : b ≠ main_v7) : Wend m c (Proc.devRef .tc b) = Wexit m c (Proc.devRef .tc b) := by
  unfold Wend
  exact StableHlo.after_of_forall_not_mem _ _ fun op hop => by
    simp only [hostOps1, List.mem_cons, List.mem_nil_iff, or_false] at hop
    subst hop
    rw [StableHlo.reshape_writes, Finset.mem_singleton]
    exact StableHlo.devRef_ne_of_ne hb

/-- Two whole buffers held at a valuation. -/
theorem held_pair (c : Dev nD) (a b : DevRef τ sig) (hab : a ≠ b) (W : Valuation τ sig (Elt F)) :
    (StableHlo.held (c.tc : Thread nD τ) {a, b} W : sProp 𝕄)
      = iprop((((c.tc : Thread nD τ).1, a) ↦{fullShare} W a) ∗ (((c.tc : Thread nD τ).1, b) ↦{fullShare} W b)) := by
  unfold StableHlo.held
  rw [bigSep_insert (by rw [Finset.mem_singleton]; exact hab), bigSep_singleton]
  rfl

/-- What bypasses the region, after the reshape: every unscoped buffer that is no window's array, at `Wend`. -/
abbrev restEnd (c : Dev nD) : sProp 𝕄 :=
  Pipeline.unscopedRest (Ix := Unit) (Name := ℕ) (U := UR sig nD τ) (Lvl := ℕ) spec0 c (fun b => Wend m c (Proc.devRef .tc b))

set_option backward.isDefEq.respectTransparency.types false in
/-- EXIT: from the boundary, the arrays at their final contents and the bypassing buffers at the entry contents,
    the reshape runs and hands back the arrays as they were and the bypassing buffers at `Wend`. -/
theorem exit_tail (𝒱₀ : Variants) (c : Dev nD) (Q' : PUnit → sProp 𝕄) :
    iprop((iprop((dats m 0 c).arrays ((dats m 0 c).arrAt · cfg0.N) ∗ restEnd m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift 𝒱₀) (c.tc : Thread nD τ) none) Set.univ
          (Pipeline.chain [StableHlo.seq hostOps1]) Q' := by
  unfold restEnd
  have hne : Proc.devRef (τ := τ) .tc main_v6 ≠ Proc.devRef .tc main_v7 := StableHlo.devRef_ne_of_ne (by decide)
  have hseq := Pipeline.wp_seqs_then (Ix := Unit) (Name := ℕ) (U := UR sig nD τ) (Lvl := ℕ) (fun q => Cfg.toPCfg (Val := Elt F) (cfgs q)) defs₀ 𝒱₀ c
    {Proc.devRef .tc main_v6, Proc.devRef .tc main_v7} [] (K := Q') [hostOps1]
    (fun ops hops op hop => by
      simp only [List.mem_cons, List.mem_nil_iff, or_false] at hops
      subst hops
      simp only [hostOps1, List.mem_cons, List.mem_nil_iff, or_false] at hop
      subst hop
      exact Finset.Subset.refl _)
    (fun ops hops op hop => by
      simp only [List.mem_cons, List.mem_nil_iff, or_false] at hops
      subst hops
      exact (List.forall_iff_forall_mem.mp hostOps1_fresh) op hop)
    (Wexit m c)
  rw [List.flatten_cons, List.flatten_nil, List.append_nil, List.map_cons, List.map_nil, List.append_nil,
    held_pair c _ _ hne, held_pair c _ _ hne, Wexit_v6, Wexit_ne m c main_v7 (by decide),
    show StableHlo.after hostOps1 (Wexit m c) = Wend m c from rfl, Wend_ne m c main_v6 (by decide), Wexit_v6,
    Pipeline.chain_nil, wp_pure] at hseq
  rw [arrays_eq, unscopedRest0_eq, unscopedRest0_eq,
    Wend_ne m c main_arg1 (by decide), Wexit_ne m c main_arg1 (by decide),
    Wend_ne m c main_arg2 (by decide), Wexit_ne m c main_arg2 (by decide),
    Wend_ne m c main_arg3 (by decide), Wexit_ne m c main_arg3 (by decide),
    Wend_ne m c main_arg4 (by decide), Wexit_ne m c main_arg4 (by decide),
    Wend_ne m c main_v0 (by decide), Wexit_ne m c main_v0 (by decide)]
  iintro ⟨Hk, Hb, ⟨A0, A1, A2, A3, A4, A5, A6, A7⟩, ⟨R1, R2, R3, R4, R5, R6⟩⟩
  ihave Hr := hseq $$ [Hb A7 R6]
  · isplitl [Hb]; · iexact Hb
    isplitl [A7]; · iexact A7
    iexact R6
  iapply Hr
  iintro ⟨Hb, A7, R6⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R1]; · iexact R1
  isplitl [R2]; · iexact R2
  isplitl [R3]; · iexact R3
  isplitl [R4]; · iexact R4
  isplitl [R5]; · iexact R5
  iexact R6

/-! ## The launch -/

/-- The program's staging cells are pairwise distinct, read at the pipelines without tables. -/
theorem cells_inj : Function.Injective (cellOf (nD := nD) (τ := τ)
    (Pipeline.pin (fun q => (cfgs q).toPCfg (Val := Elt F)) (fun q => (cfgs q).toPCfg_adm))) := cellOf_inj

/-- What the run ends in: each window's array holds what the pipeline's write-backs left, and every other unscoped
    buffer what the reshape after the region leaves. -/
def RunPost (r : PUnit × MemSt nD τ sig (Elt F)) : Prop :=
  ∀ c : Dev nD,
    (∀ w, r.2.mem ((spec0 w).arr.view.loc (c.tc : Thread nD τ)) = (dats m 0 c).arrAt w cfg0.N)
    ∧ ∀ b ∈ Pipeline.restRefs sig spec0, r.2.mem ((c.tc : Thread nD τ).loc b) = Wend m c (Proc.devRef .tc b)

set_option backward.isDefEq.respectTransparency.types false in
/-- At the compiled mesh, from any memory with zero counters: every weakly fair execution of @main terminates in a
    state satisfying `RunPost`. -/
theorem run_main : θ_run defs (onTc (τ := τ) (main (F := F))) (s₀ m ρ) (RunPost m) :=
  Pipeline.θ_run_region_pf_tail (fun q => (cfgs q).toPCfg (Val := Elt F)) (fun q => (cfgs q).toPCfg_adm) (dats m) () cells_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) cells_inj)
      (Pipeline.launchToks (Pipeline.pin (fun q => (cfgs q).toPCfg (Val := Elt F)) (fun q => (cfgs q).toPCfg_adm)) cells_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) (fun q => (cfgs q).toPCfg_adm)) cells_inj) (Pipeline.launchToks (Pipeline.pin (fun q => (cfgs q).toPCfg (Val := Elt F)) (fun q => (cfgs q).toPCfg_adm)) cells_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := entry_split m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => restEnd m c)
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none]
      exact exit_tail m Variants.none c Q')
    (QY := fun c s => ∀ b ∈ Pipeline.restRefs sig spec0, s.mem ((c.tc : Thread nD τ).loc b) = Wend m c (Proc.devRef .tc b))
    (hY := fun c s' => by
      iintro ⟨-, HU, HSI⟩
      unfold restEnd Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

/-! ## The frame -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- In a state satisfying `RunPost` the five argument arrays are as launched. The activations, read by two
    windows, are never written by the pipeline (an input array keeps its entry contents); the other four bypass
    the region, and the reshape after it writes only the result column. -/
theorem args_kept (r : PUnit × MemSt nD τ sig (Elt F)) (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(((h c).1 0).trans ((dats m 0 c).arrAt_in 0 rfl cfg0.N)).trans ((A_eq m c 0).trans (V_main_arg0 m c)),
   ((h c).2 main_arg1 (Pipeline.mem_restRefs_of main_arg1 (by decide) (by decide))).trans
      ((Wend_ne m c main_arg1 (by decide)).trans ((Wexit_ne m c main_arg1 (by decide)).trans (V_main_arg1 m c))),
   ((h c).2 main_arg2 (Pipeline.mem_restRefs_of main_arg2 (by decide) (by decide))).trans
      ((Wend_ne m c main_arg2 (by decide)).trans ((Wexit_ne m c main_arg2 (by decide)).trans (V_main_arg2 m c))),
   ((h c).2 main_arg3 (Pipeline.mem_restRefs_of main_arg3 (by decide) (by decide))).trans
      ((Wend_ne m c main_arg3 (by decide)).trans ((Wexit_ne m c main_arg3 (by decide)).trans (V_main_arg3 m c))),
   ((h c).2 main_arg4 (Pipeline.mem_restRefs_of main_arg4 (by decide) (by decide))).trans
      ((Wend_ne m c main_arg4 (by decide)).trans ((Wexit_ne m c main_arg4 (by decide)).trans (V_main_arg4 m c)))⟩

/-- THE FRAME: @main runs to its end and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.KernelIdeal.Hand

end
-- ==== Proof.RouterSpec.lean ====
/-
  The router's result as ONE function of the five argument arrays, over the extended reals.

  For a token row r the two programs both compute

      sigmoid( (sum_j relu( (sum_k x[r,k] * W1[k,j]) + b1[j] ) * W2[j,0]) + b2[0] ),

  the reference with one contraction over the 4096 input features, the kernel with the feature axis cut into
  two halves of 2048 whose partial products are added. A finite sum of extended reals may be regrouped freely
  (addition there is commutative and associative), so the two spellings agree for every input, finite or not.
-/
import Idealize.ShloMosaic.PureOps.Ideal
import Idealize.ShloMosaic.Lib.ValueIdx
import Mathlib.Algebra.BigOperators.Fin

noncomputable section

open scoped BigOperators

namespace Cert.Router

open Idealize.ShloMosaic Idealize.ShloMosaic.ValueIdx

/-- The logit of one token: the hidden layer's relu against the second layer's column, plus its bias. -/
def rowLogit (xr : Fin 4096 → EReal) (W : Fin 4096 → Fin 256 → EReal) (b1 w2 : Fin 256 → EReal) (b2 : EReal) : EReal :=
  (∑ j : Fin 256, max ((∑ k : Fin 4096, xr k * W k j) + b1 j) 0 * w2 j) + b2

/-- The same logit with the feature axis in two halves, each contracted on its own. -/
def rowLogitSplit (xa xb : Fin 2048 → EReal) (Wa Wb : Fin 2048 → Fin 256 → EReal) (b1 w2 : Fin 256 → EReal) (b2 : EReal) : EReal :=
  (∑ j : Fin 256, max (((∑ k : Fin 2048, xa k * Wa k j) + ∑ k : Fin 2048, xb k * Wb k j) + b1 j) 0 * w2 j) + b2

/-- A contraction over 4096 features is the sum of the contractions over features 0..2047 and 2048..4095. -/
theorem rowLogit_split (xr : Fin 4096 → EReal) (W : Fin 4096 → Fin 256 → EReal) (b1 w2 : Fin 256 → EReal) (b2 : EReal) :
    rowLogit xr W b1 w2 b2
      = rowLogitSplit (fun k => xr (Fin.castAdd 2048 k)) (fun k => xr (Fin.natAdd 2048 k))
          (fun k j => W (Fin.castAdd 2048 k) j) (fun k j => W (Fin.natAdd 2048 k) j) b1 w2 b2 := by
  unfold rowLogit rowLogitSplit
  refine congrArg (· + b2) (Finset.sum_congr rfl fun j _ => ?_)
  rw [show (∑ k : Fin 4096, xr k * W k j) = ∑ k : Fin (2048 + 2048), xr k * W k j from rfl, Fin.sum_univ_add]

/-- Row `128 a + l` of a block of 1024 token rows, when the block's column of results is laid out as 8 × 128. -/
def blockRow (a : Fin 8) (l : Fin 128) : Fin 1024 := ⟨a.val * 128 + l.val, by have := a.isLt; have := l.isLt; omega⟩

/-- The router's output for token row `r`. -/
def rowOut (x : (⟨2, ![32768, 4096]⟩ : Shape).Idx → EReal) (W1 : (⟨2, ![4096, 256]⟩ : Shape).Idx → EReal)
    (b1 : (⟨1, ![256]⟩ : Shape).Idx → EReal) (W2 : (⟨2, ![256, 1]⟩ : Shape).Idx → EReal) (b2 : (⟨1, ![1]⟩ : Shape).Idx → EReal)
    (r : Fin 32768) : EReal :=
  Ideal.logistic (rowLogit (fun k => x (ix2 r k)) (fun k j => W1 (ix2 k j)) (fun j => b1 (ix1 j))
    (fun j => W2 (ix2 j (0 : Fin 1))) (b2 (ix1 (0 : Fin 1))))

/-- The router's whole result, a column of 32768 probabilities. -/
def G (x : (⟨2, ![32768, 4096]⟩ : Shape).Idx → EReal) (W1 : (⟨2, ![4096, 256]⟩ : Shape).Idx → EReal)
    (b1 : (⟨1, ![256]⟩ : Shape).Idx → EReal) (W2 : (⟨2, ![256, 1]⟩ : Shape).Idx → EReal) (b2 : (⟨1, ![1]⟩ : Shape).Idx → EReal) :
    (⟨2, ![32768, 1]⟩ : Shape).Idx → EReal :=
  fun i => rowOut x W1 b1 W2 b2 ⟨(i 0).val, idx2_lt0 i⟩

end Cert.Router

end
-- ==== Proof.KernelPayload.lean ====
import proofs.«117128_g3504693313599_cont_8to1_b_191_17_alg».proof.Proof.Gen.KernelIdeal.Skeleton
import proofs.«117128_g3504693313599_cont_8to1_b_191_17_alg».proof.Proof.RouterSpec
import Idealize.ShloMosaic.Lib.ValueIdx
import Idealize.ShloMosaic.Lib.Pipeline.Value
import Idealize.ShloMosaic.Lib.ValueLayout
import Idealize.ShloMosaic.PureOps.Ideal.Laws

/-
  The kernel's stored tile, read at an index, over the extended reals.

  One grid step holds a block of 1024 token rows, its features in two halves of 2048. The body contracts each half
  against its half of W1 (two products into zero accumulators), adds the two, adds b1 along the rows, takes the
  maximum with zero, multiplies by W2's column laid out as a row, sums the 256 lanes of each row, adds b2, and applies
  the logistic function; the column of 1024 results is stored as an 8 x 128 tile, row 128 a + l at (a, l).
-/

noncomputable section

open scoped BigOperators

namespace Cert.KernelIdeal.PayValue

open Cert.KernelIdeal Idealize.ShloMosaic Idealize.ShloMosaic.ValueIdx

/-! ## The contraction of one half -/

theorem lhs_row (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

theorem lhs_feature (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q

theorem rhs_feature (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q

theorem rhs_unit (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- A product of a block of rows with a half of W1, into the zero accumulator, read at (row, hidden unit): the sum
    over that half's 2048 features. -/
theorem half_product (x : FVec Ideal S1024x2048 .f32) (w : FVec Ideal S2048x256 .bf16) (p : Fin 1024) (q : Fin 256) :
    matmul dot_S1024x2048_S2048x256_S1024x256_1_0_0_1_n_n none x w (constant (F := Ideal) S1024x256 .f32 0x00000000#32) (ix2 p q)
      = ∑ k : Fin 2048, x (ix2 p k) * w (ix2 k q) := by
  show FloatOps.matmul dot_S1024x2048_S2048x256_S1024x256_1_0_0_1_n_n none x w (constant (F := Ideal) S1024x256 .f32 0x00000000#32) (ix2 p q) = _
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q) ((contrEquiv1 dot_S1024x2048_S2048x256_S1024x256_1_0_0_1_n_n 2048 rfl rfl).symm k) = ix2 p k := funext fun a => Fin.ext (by
    match a with
    | ⟨0, _⟩ => exact lhs_row _ _
    | ⟨1, _⟩ => exact (lhs_feature _ _).trans hk)
  have er : dot_S1024x2048_S2048x256_S1024x256_1_0_0_1_n_n.rhsIdx (ix2 p q) ((contrEquiv1 dot_S1024x2048_S2048x256_S1024x256_1_0_0_1_n_n 2048 rfl rfl).symm k) = ix2 k q := funext fun a => Fin.ext (by
    match a with
    | ⟨0, _⟩ => exact (rhs_feature _ _).trans hk
    | ⟨1, _⟩ => exact rhs_unit _ _)
  rw [el, er]

/-! ## The lane sum and the two casts -/

/-- The sum over the 256 lanes of a row, from the zero accumulator. -/
theorem lane_sum (src : FVec Ideal S1024x256 .f32) (h : S1024x256.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ j : Fin 256, src (ix2 r j) := by
  refine (Ideal.multiReduction_add_single src 0x00000000#32 h hφ hacc (ix1 r)).trans ?_
  refine Finset.sum_congr rfl fun j _ => congrArg src (funext fun a => Fin.ext ?_)
  match a with
  | ⟨0, _⟩ => rfl
  | ⟨1, _⟩ => rfl

/-- A vector of 1024 entries viewed as a column reads, at (r, c), entry r. -/
theorem column_of_vector {α : Type} (v : S1024.Idx → α) (h : S1024.ShapeCasts S1024x1) (r : Fin 1024) (c : Fin 1) :
    shapeCast S1024x1 v h (ix2 r c) = v (ix1 r) :=
  shapeCast_apply v h _ _ (by
    have hc : c.val = 0 := by omega
    rw [Shape.rowMajor_val_two, Shape.rowMajor_val_one]
    show r.val = r.val * 1 + c.val
    omega)

/-- A column of 1024 entries viewed as an 8 x 128 tile reads, at (a, l), row 128 a + l. -/
theorem tile_of_column {α : Type} (v : S1024x1.Idx → α) (h : S1024x1.ShapeCasts S8x128) (a : Fin 8) (l : Fin 128) :
    shapeCast S8x128 v h (ix2 a l) = v (ix2 (Cert.Router.blockRow a l) (0 : Fin 1)) :=
  shapeCast_apply v h _ _ (by
    rw [Shape.rowMajor_val_two, Shape.rowMajor_val_two]
    show (a.val * 128 + l.val) * 1 + 0 = a.val * 128 + l.val
    omega)

/-! ## The stored tile at an index -/

/-- The logistic function applied to a vector reads through at an index. -/
theorem logistic_apply {s : Shape} {φ : FTy} (v : FVec Ideal s φ) (i : s.Idx) :
    logistic v i = Ideal.logistic (v i) := rfl

/-- The tile the body stores, at (a, l): the logistic function of the logit of token row 128 a + l of the block,
    with the feature contraction in its two halves. -/
theorem pay_apply (xa : Vec Ideal S1024x2048 .f32) (wa : Vec Ideal S2048x256 .bf16) (xb : Vec Ideal S1024x2048 .f32)
    (wb : Vec Ideal S2048x256 .bf16) (b1 w2 : Vec Ideal S1x256 .f32) (b2 : Vec Ideal S1x1 .f32) (a : Fin 8) (l : Fin 128) :
    Cert.KernelIdeal.Gen.k0_pay1 (F := Ideal) xa wa xb wb b1 w2 b2 (ix2 a l)
      = Ideal.logistic (Cert.Router.rowLogitSplit (fun k => xa (ix2 (Cert.Router.blockRow a l) k))
          (fun k => xb (ix2 (Cert.Router.blockRow a l) k)) (fun k j => wa (ix2 k j)) (fun k j => wb (ix2 k j))
          (fun j => b1 (ix2 (0 : Fin 1) j)) (fun j => w2 (ix2 (0 : Fin 1) j)) (b2 (ix2 (0 : Fin 1) (0 : Fin 1)))) := by
  unfold Gen.k0_pay1
  refine (tile_of_column _ _ a l).trans ?_
  refine (logistic_apply _ _).trans (congrArg Ideal.logistic ?_)
  unfold Cert.Router.rowLogitSplit
  refine (addf_apply _ _ _).trans (congrArg₂ (fun u v : EReal => u + v) ?_ ?_)
  · refine (column_of_vector _ _ _ _).trans ?_
    refine (lane_sum _ _ _ _ _).trans (Finset.sum_congr rfl fun j _ => ?_)
    refine (mulf_apply _ _ _).trans (congrArg₂ (fun u v : EReal => u * v) ?_ ?_)
    · refine (maximumf_apply _ _ _).trans (congrArg₂ (fun u v : EReal => max u v) ?_ ?_)
      · refine (addf_apply _ _ _).trans (congrArg₂ (fun u v : EReal => u + v) ?_ ?_)
        · refine (addf_apply _ _ _).trans (congrArg₂ (fun u v : EReal => u + v) ?_ ?_)
          · refine (half_product _ _ _ _).trans ?_
            rw [shapeCast_self]
          · refine (half_product _ _ _ _).trans ?_
            rw [shapeCast_self]
        · refine (broadcastTo_1b_ab_apply _ _ _ _).trans ?_
          rw [shapeCast_self]
      · exact Ideal.ofBits_zero_f32
    · refine (broadcastTo_1b_ab_apply _ _ _ _).trans ?_
      rw [shapeCast_self]
  · refine (broadcastTo_1b_ab_apply _ _ _ _).trans ?_
    rw [shapeCast_self]

end Cert.KernelIdeal.PayValue

end
-- ==== Proof.KernelValue.lean ====
import proofs.«117128_g3504693313599_cont_8to1_b_191_17_alg».proof.Proof.BodyIdeal
import proofs.«117128_g3504693313599_cont_8to1_b_191_17_alg».proof.Proof.KernelPayload
import proofs.«117128_g3504693313599_cont_8to1_b_191_17_alg».proof.Proof.RouterSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-
  The kernel's result array after the run, as one function of the five launch arrays.

  The grid's point t holds token rows 1024 t .. 1024 t + 1023: the two token windows are the two feature halves of
  those rows, the weight windows are the two row halves of the first layer's matrix (cut by the host before the
  region, where rounding to the narrower format is the identity on extended reals) and the biases and the second
  layer's column laid out as rows. The body's tile at (a, l) is therefore the logistic function of the logit of token
  row 1024 t + 128 a + l with the feature contraction in two halves, which is the router's output for that row since
  a sum over 4096 features is the sum of its halves. Point t writes that tile to rows 8 t .. 8 t + 7 of the 256 x 128
  result array; the 32 blocks tile the array, so it ends holding the router's output for token row 128 a + l at (a, l).
-/

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The arrays the region finds, read at an index

Before the region the host rounds the first layer's matrix to the narrower format (the identity on extended reals) and
cuts it into its two row halves, and lays the first bias, the second layer's column and the second bias out as rows.
The token array is the launch's own. -/

/-- The token array is the launch's. -/
theorem V_x (c : Dev nD) :
    (V (F := Ideal) m c main_arg0 : S32768x4096.Idx → EReal) = m ((c.tc : Thread nD τ).loc main_arg0) := by
  show StableHlo.after hostOps0 (fun b => m (c, b)) (Proc.devRef .tc main_arg0) = _
  after_results

/-- The first window of the matrix is its rows 0 .. 2047 … -/
theorem V_wa (c : Dev nD) :
    (V (F := Ideal) m c main_v1 : S2048x256.Idx → EReal)
      = extractStridedSlice S2048x256 ![0, 0] (truncf .bf16 (m ((c.tc : Thread nD τ).loc main_arg1) : FVec Ideal S4096x256 .f32) bitsLt_bf16_f32 : FVec Ideal S4096x256 .bf16) slices_S4096x256_S2048x256_0_0 := by
  show StableHlo.after hostOps0 (fun b => m (c, b)) (Proc.devRef .tc main_v1) = _
  after_results

/-- … and the second its rows 2048 .. 4095. -/
theorem V_wb (c : Dev nD) :
    (V (F := Ideal) m c main_v2 : S2048x256.Idx → EReal)
      = extractStridedSlice S2048x256 ![2048, 0] (truncf .bf16 (m ((c.tc : Thread nD τ).loc main_arg1) : FVec Ideal S4096x256 .f32) bitsLt_bf16_f32 : FVec Ideal S4096x256 .bf16) slices_S4096x256_S2048x256_2048_0 := by
  show StableHlo.after hostOps0 (fun b => m (c, b)) (Proc.devRef .tc main_v2) = _
  after_results

theorem V_b1 (c : Dev nD) :
    (V (F := Ideal) m c main_v3 : S1x256.Idx → EReal)
      = shapeCast S1x256 (m ((c.tc : Thread nD τ).loc main_arg2) : S256.Idx → EReal) shapeCasts_S256_S1x256 := by
  show StableHlo.after hostOps0 (fun b => m (c, b)) (Proc.devRef .tc main_v3) = _
  after_results
  all_goals rfl

theorem V_w2 (c : Dev nD) :
    (V (F := Ideal) m c main_v4 : S1x256.Idx → EReal)
      = shapeCast S1x256 (m ((c.tc : Thread nD τ).loc main_arg3) : S256x1.Idx → EReal) shapeCasts_S256x1_S1x256 := by
  show StableHlo.after hostOps0 (fun b => m (c, b)) (Proc.devRef .tc main_v4) = _
  after_results
  all_goals rfl

theorem V_b2 (c : Dev nD) :
    (V (F := Ideal) m c main_v5 : S1x1.Idx → EReal)
      = shapeCast S1x1 (m ((c.tc : Thread nD τ).loc main_arg4) : S1.Idx → EReal) shapeCasts_S1_S1x1 := by
  show StableHlo.after hostOps0 (fun b => m (c, b)) (Proc.devRef .tc main_v5) = _
  after_results
  all_goals rfl

/-- Row k of the first half is row k of the matrix. -/
theorem V_wa_apply (c : Dev nD) (k : Fin 2048) (j : Fin 256) :
    (V (F := Ideal) m c main_v1 : S2048x256.Idx → EReal) (ix2 k j)
      = (m ((c.tc : Thread nD τ).loc main_arg1) : S4096x256.Idx → EReal) (ix2 (Fin.castAdd 2048 k) j) := by
  rw [V_wa]
  refine (extractStridedSlice_apply _ _ _ (ix2 k j) (ix2 (Fin.castAdd 2048 k) j) fun a => ?_).trans rfl
  match a with
  | ⟨0, _⟩ => show k.val = 0 + k.val; omega
  | ⟨1, _⟩ => show j.val = 0 + j.val; omega

/-- Row k of the second half is row 2048 + k of the matrix. -/
theorem V_wb_apply (c : Dev nD) (k : Fin 2048) (j : Fin 256) :
    (V (F := Ideal) m c main_v2 : S2048x256.Idx → EReal) (ix2 k j)
      = (m ((c.tc : Thread nD τ).loc main_arg1) : S4096x256.Idx → EReal) (ix2 (Fin.natAdd 2048 k) j) := by
  rw [V_wb]
  refine (extractStridedSlice_apply _ _ _ (ix2 k j) (ix2 (Fin.natAdd 2048 k) j) fun a => ?_).trans rfl
  match a with
  | ⟨0, _⟩ => show 2048 + k.val = 2048 + k.val; rfl
  | ⟨1, _⟩ => show j.val = 0 + j.val; omega

/-- The first bias as a row. -/
theorem V_b1_apply (c : Dev nD) (j : Fin 256) :
    (V (F := Ideal) m c main_v3 : S1x256.Idx → EReal) (ix2 (0 : Fin 1) j)
      = (m ((c.tc : Thread nD τ).loc main_arg2) : S256.Idx → EReal) (ix1 j) := by
  rw [V_b1]
  exact shapeCast_a_1a_apply _ _ _ _

/-- The second layer's column as a row. -/
theorem V_w2_apply (c : Dev nD) (j : Fin 256) :
    (V (F := Ideal) m c main_v4 : S1x256.Idx → EReal) (ix2 (0 : Fin 1) j)
      = (m ((c.tc : Thread nD τ).loc main_arg3) : S256x1.Idx → EReal) (ix2 j (0 : Fin 1)) := by
  rw [V_w2]
  exact shapeCast_apply _ _ _ _ (by
    show (S256x1.rowMajor (ix2 j (0 : Fin 1))).val = (S1x256.rowMajor (ix2 (0 : Fin 1) j)).val
    rw [Shape.rowMajor_val_two, Shape.rowMajor_val_two]
    show j.val * 1 + 0 = 0 * 256 + j.val
    omega)

/-- The second bias as a one-by-one array. -/
theorem V_b2_apply (c : Dev nD) :
    (V (F := Ideal) m c main_v5 : S1x1.Idx → EReal) (ix2 (0 : Fin 1) (0 : Fin 1))
      = (m ((c.tc : Thread nD τ).loc main_arg4) : S1.Idx → EReal) (ix1 (0 : Fin 1)) := by
  rw [V_b2]
  exact shapeCast_a_1a_apply _ _ _ _

/-! ## The windows' blocks, read at an index -/

theorem hz : (![0, 0] : Fin 2 → Nat) = fun _ => 0 := funext fun a => by fin_cases a <;> rfl

/-- The printed index maps, decided over the grid: the two token windows and the result window move with the point
    along the rows, the second token window sits one block to the right, and every weight window stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The first token window at point t holds rows 1024 t .. of the token array, features 0 .. 2047. -/
theorem iblk_xa (c : Dev nD) (t : Fin cfg0.N) (r : Fin 1024) (k : Fin 2048) (i : S32768x4096.Idx)
    (h0 : (i 0).val = 1024 * t.val + r.val) (h1 : (i 1).val = k.val) :
    (iblk (F := Ideal) m c 0 t : Vec Ideal S1024x2048 .f32) (ix2 r k)
      = (m ((c.tc : Thread nD τ).loc main_arg0) : S32768x4096.Idx → EReal) i := by
  obtain ⟨e0, e1, -⟩ := idx_facts t
  unfold iblk
  rw [View.read_apply]
  show (V (F := Ideal) m c main_arg0 : S32768x4096.Idx → EReal) _ = _
  rw [V_x]
  refine congrArg _ (funext fun a => Fin.ext ?_)
  match a with
  | ⟨0, _⟩ => show win0_0.index t (0 : Fin 2) * 1024 + 1 * r.val = (i 0).val; rw [e0, h0]; omega
  | ⟨1, _⟩ => show win0_0.index t (1 : Fin 2) * 2048 + 1 * k.val = (i 1).val; rw [e1, h1]; omega

/-- The second token window holds the same rows, features 2048 .. 4095. -/
theorem iblk_xb (c : Dev nD) (t : Fin cfg0.N) (r : Fin 1024) (k : Fin 2048) (i : S32768x4096.Idx)
    (h0 : (i 0).val = 1024 * t.val + r.val) (h1 : (i 1).val = 2048 + k.val) :
    (iblk (F := Ideal) m c 1 t : Vec Ideal S1024x2048 .f32) (ix2 r k)
      = (m ((c.tc : Thread nD τ).loc main_arg0) : S32768x4096.Idx → EReal) i := by
  obtain ⟨-, -, e0, e1, -⟩ := idx_facts t
  unfold iblk
  rw [View.read_apply]
  show (V (F := Ideal) m c main_arg0 : S32768x4096.Idx → EReal) _ = _
  rw [V_x]
  refine congrArg _ (funext fun a => Fin.ext ?_)
  match a with
  | ⟨0, _⟩ => show win0_1.index t (0 : Fin 2) * 1024 + 1 * r.val = (i 0).val; rw [e0, h0]; omega
  | ⟨1, _⟩ => show win0_1.index t (1 : Fin 2) * 2048 + 1 * k.val = (i 1).val; rw [e1, h1]; omega

/-- The first matrix window holds rows 0 .. 2047 of the first layer's matrix, at every point. -/
theorem iblk_wa (c : Dev nD) (t : Fin cfg0.N) (k : Fin 2048) (j : Fin 256) :
    (iblk (F := Ideal) m c 2 t : Vec Ideal S2048x256 .bf16) (ix2 k j)
      = (m ((c.tc : Thread nD τ).loc main_arg1) : S4096x256.Idx → EReal) (ix2 (Fin.castAdd 2048 k) j) := by
  obtain ⟨-, -, -, -, e0, e1, -⟩ := idx_facts t
  unfold iblk
  rw [View.read_apply]
  show (V (F := Ideal) m c main_v1 : S2048x256.Idx → EReal) _ = _
  refine Eq.trans (congrArg _ (funext fun a => Fin.ext ?_)) (V_wa_apply m c k j)
  match a with
  | ⟨0, _⟩ => show win0_2.index t (0 : Fin 2) * 2048 + 1 * k.val = k.val; rw [e0]; omega
  | ⟨1, _⟩ => show win0_2.index t (1 : Fin 2) * 256 + 1 * j.val = j.val; rw [e1]; omega

/-- The second matrix window holds rows 2048 .. 4095. -/
theorem iblk_wb (c : Dev nD) (t : Fin cfg0.N) (k : Fin 2048) (j : Fin 256) :
    (iblk (F := Ideal) m c 3 t : Vec Ideal S2048x256 .bf16) (ix2 k j)
      = (m ((c.tc : Thread nD τ).loc main_arg1) : S4096x256.Idx → EReal) (ix2 (Fin.natAdd 2048 k) j) := by
  obtain ⟨-, -, -, -, -, -, e0, e1, -⟩ := idx_facts t
  unfold iblk
  rw [View.read_apply]
  show (V (F := Ideal) m c main_v2 : S2048x256.Idx → EReal) _ = _
  refine Eq.trans (congrArg _ (funext fun a => Fin.ext ?_)) (V_wb_apply m c k j)
  match a with
  | ⟨0, _⟩ => show win0_3.index t (0 : Fin 2) * 2048 + 1 * k.val = k.val; rw [e0]; omega
  | ⟨1, _⟩ => show win0_3.index t (1 : Fin 2) * 256 + 1 * j.val = j.val; rw [e1]; omega

/-- The first bias's window. -/
theorem iblk_b1 (c : Dev nD) (t : Fin cfg0.N) (j : Fin 256) :
    (iblk (F := Ideal) m c 4 t : Vec Ideal S1x256 .f32) (ix2 (0 : Fin 1) j)
      = (m ((c.tc : Thread nD τ).loc main_arg2) : S256.Idx → EReal) (ix1 j) := by
  obtain ⟨-, -, -, -, -, -, -, -, e0, e1, -⟩ := idx_facts t
  unfold iblk
  rw [View.read_apply]
  show (V (F := Ideal) m c main_v3 : S1x256.Idx → EReal) _ = _
  refine Eq.trans (congrArg _ (funext fun a => Fin.ext ?_)) (V_b1_apply m c j)
  match a with
  | ⟨0, _⟩ => show win0_4.index t (0 : Fin 2) * 1 + 1 * 0 = 0; rw [e0]
  | ⟨1, _⟩ => show win0_4.index t (1 : Fin 2) * 256 + 1 * j.val = j.val; rw [e1]; omega

/-- The second layer's column's window. -/
theorem iblk_w2 (c : Dev nD) (t : Fin cfg0.N) (j : Fin 256) :
    (iblk (F := Ideal) m c 5 t : Vec Ideal S1x256 .f32) (ix2 (0 : Fin 1) j)
      = (m ((c.tc : Thread nD τ).loc main_arg3) : S256x1.Idx → EReal) (ix2 j (0 : Fin 1)) := by
  obtain ⟨-, -, -, -, -, -, -, -, -, -, e0, e1, -⟩ := idx_facts t
  unfold iblk
  rw [View.read_apply]
  show (V (F := Ideal) m c main_v4 : S1x256.Idx → EReal) _ = _
  refine Eq.trans (congrArg _ (funext fun a => Fin.ext ?_)) (V_w2_apply m c j)
  match a with
  | ⟨0, _⟩ => show win0_5.index t (0 : Fin 2) * 1 + 1 * 0 = 0; rw [e0]
  | ⟨1, _⟩ => show win0_5.index t (1 : Fin 2) * 256 + 1 * j.val = j.val; rw [e1]; omega

/-- The second bias's window. -/
theorem iblk_b2 (c : Dev nD) (t : Fin cfg0.N) :
    (iblk (F := Ideal) m c 6 t : Vec Ideal S1x1 .f32) (ix2 (0 : Fin 1) (0 : Fin 1))
      = (m ((c.tc : Thread nD τ).loc main_arg4) : S1.Idx → EReal) (ix1 (0 : Fin 1)) := by
  obtain ⟨-, -, -, -, -, -, -, -, -, -, -, -, e0, e1, -⟩ := idx_facts t
  unfold iblk
  rw [View.read_apply]
  show (V (F := Ideal) m c main_v5 : S1x1.Idx → EReal) _ = _
  refine Eq.trans (congrArg _ (funext fun a => Fin.ext ?_)) (V_b2_apply m c)
  match a with
  | ⟨0, _⟩ => show win0_6.index t (0 : Fin 2) * 1 + 1 * 0 = 0; rw [e0]
  | ⟨1, _⟩ => show win0_6.index t (1 : Fin 2) * 1 + 1 * 0 = 0; rw [e1]

/-! ## What a point writes back -/

/-- The result laid out as the kernel writes it, 256 rows of 128 lanes: entry (a, l) is token row 128 a + l. -/
def G256 (x : S32768x4096.Idx → EReal) (W1 : S4096x256.Idx → EReal) (b1 : S256.Idx → EReal) (W2 : S256x1.Idx → EReal)
    (b2 : S1.Idx → EReal) : S256x128.Idx → EReal :=
  fun i => Cert.Router.rowOut x W1 b1 W2 b2
    ⟨(i 0).val * 128 + (i 1).val, by have := idx2_lt0 i; have := idx2_lt1 i; omega⟩

/-- The body's tile at (a, l), from blocks that are the stated parts of the arrays, is the router's output for the
    token row R they belong to: the contraction over 4096 features is the sum of its two halves. -/
theorem tile_eq (xa xb : Vec Ideal S1024x2048 .f32) (wa wb : Vec Ideal S2048x256 .bf16) (b1v w2v : Vec Ideal S1x256 .f32)
    (b2v : Vec Ideal S1x1 .f32)
    (x : S32768x4096.Idx → EReal) (W1 : S4096x256.Idx → EReal) (b1 : S256.Idx → EReal) (W2 : S256x1.Idx → EReal)
    (b2 : S1.Idx → EReal) (R : Fin 32768) (a : Fin 8) (l : Fin 128)
    (hxa : ∀ k : Fin 2048, xa (ix2 (Cert.Router.blockRow a l) k) = x (ix2 R (Fin.castAdd 2048 k)))
    (hxb : ∀ k : Fin 2048, xb (ix2 (Cert.Router.blockRow a l) k) = x (ix2 R (Fin.natAdd 2048 k)))
    (hwa : ∀ (k : Fin 2048) (j : Fin 256), wa (ix2 k j) = W1 (ix2 (Fin.castAdd 2048 k) j))
    (hwb : ∀ (k : Fin 2048) (j : Fin 256), wb (ix2 k j) = W1 (ix2 (Fin.natAdd 2048 k) j))
    (hb1 : ∀ j : Fin 256, b1v (ix2 (0 : Fin 1) j) = b1 (ix1 j))
    (hw2 : ∀ j : Fin 256, w2v (ix2 (0 : Fin 1) j) = W2 (ix2 j (0 : Fin 1)))
    (hb2 : b2v (ix2 (0 : Fin 1) (0 : Fin 1)) = b2 (ix1 (0 : Fin 1))) :
    k0_pay1 (F := Ideal) xa wa xb wb b1v w2v b2v (ix2 a l) = Cert.Router.rowOut x W1 b1 W2 b2 R := by
  rw [Cert.KernelIdeal.PayValue.pay_apply]
  unfold Cert.Router.rowOut
  rw [Cert.Router.rowLogit_split]
  simp only [hxa, hxb, hwa, hwb, hb1, hw2, hb2]

/-- WHAT POINT t WRITES BACK is its block of the result: rows 8 t .. 8 t + 7 of the 256, that is token rows
    1024 t .. 1024 t + 1023. -/
theorem flushed_eq (c : Dev nD) (t : Fin cfg0.N) :
    (dats (F := Ideal) m 0 c).flushed 7 t
      = ((cfg0.win 7).blk t).view.read (Elt Ideal)
          (G256 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))) := by
  have hN : cfg0.N = 32 := N_0
  have ht : t.val < 32 := hN ▸ t.isLt
  obtain ⟨-, -, -, -, -, -, -, -, -, -, -, -, -, -, e0, e1⟩ := idx_facts t
  show (cfg0.win 7).cut (grid0.coords t) ((dats (F := Ideal) m 0 c).after 7 t) = _
  rw [after7]
  unfold out7
  rw [View.canon_unit_zero hz]
  simp only [View.ld_unit_zero (S := S1024x2048) hz, View.ld_unit_zero (S := S2048x256) hz,
    View.ld_unit_zero (S := S1x256) hz, View.ld_unit_zero (S := S1x1) hz]
  refine funext fun (j : S8x128.Idx) => ?_
  obtain ⟨a, l, rfl⟩ : ∃ (a : Fin 8) (l : Fin 128), j = ix2 a l := ⟨j 0, j 1, eq_ix2 j⟩
  have ha : a.val < 8 := a.isLt
  have hl : l.val < 128 := l.isLt
  rw [View.read_apply]
  show k0_pay1 (F := Ideal) (iblk (F := Ideal) m c 0 t) (iblk (F := Ideal) m c 2 t) (iblk (F := Ideal) m c 1 t)
      (iblk (F := Ideal) m c 3 t) (iblk (F := Ideal) m c 4 t) (iblk (F := Ideal) m c 5 t) (iblk (F := Ideal) m c 6 t) (ix2 a l) = _
  refine (tile_eq (iblk (F := Ideal) m c 0 t) (iblk (F := Ideal) m c 1 t) (iblk (F := Ideal) m c 2 t)
    (iblk (F := Ideal) m c 3 t) (iblk (F := Ideal) m c 4 t) (iblk (F := Ideal) m c 5 t) (iblk (F := Ideal) m c 6 t)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))
    ⟨(8 * t.val + a.val) * 128 + l.val, by omega⟩ a l ?_ ?_ ?_ ?_ ?_ ?_ ?_).trans ?_
  · intro k
    refine iblk_xa m c t (Cert.Router.blockRow a l) k _ ?_ rfl
    show (8 * t.val + a.val) * 128 + l.val = 1024 * t.val + (a.val * 128 + l.val)
    omega
  · intro k
    refine iblk_xb m c t (Cert.Router.blockRow a l) k _ ?_ rfl
    show (8 * t.val + a.val) * 128 + l.val = 1024 * t.val + (a.val * 128 + l.val)
    omega
  · exact fun k j => iblk_wa m c t k j
  · exact fun k j => iblk_wb m c t k j
  · exact fun j => iblk_b1 m c t j
  · exact fun j => iblk_w2 m c t j
  · exact iblk_b2 m c t
  · show _ = G256 _ _ _ _ _ (((cfg0.win 7).blk t).view.emb (ix2 a l))
    unfold G256
    refine congrArg (Cert.Router.rowOut _ _ _ _ _) (Fin.ext ?_)
    show (8 * t.val + a.val) * 128 + l.val
      = (win0_7.index t (0 : Fin 2) * 8 + 1 * a.val) * 128 + (win0_7.index t (1 : Fin 2) * 128 + 1 * l.val)
    rw [e0, e1]
    omega

/-! ## The blocks tile the result array -/

/-- An index of the result array is in point t's block iff each coordinate is in the block's range on its axis. -/
theorem mem_blk (t : Fin cfg0.N) (i : S256x128.Idx) :
    i ∈ ((cfg0.win 7).blk t).view.set
      ↔ ∀ a : Fin 2, win0_7.index t a * S8x128.size a ≤ (i a).val ∧ (i a).val < win0_7.index t a * S8x128.size a + S8x128.size a := by
  show i ∈ ((View.whole main_v6).slice (win0_7.rect t)).set ↔ _
  rw [View.set_slice_whole, Rect.mem_set_unit]
  exact Iff.rfl

/-- Row a of the 256 rows of the result array lies in the block of point a / 8, which writes it back. -/
theorem cover (i : S256x128.Idx) :
    ∃ t : Fin cfg0.N, (cfg0.win 7).flush t = true ∧ i ∈ ((cfg0.win 7).blk t).view.set := by
  have hN : cfg0.N = 32 := N_0
  have h0 : (i 0).val < 256 := (i 0).isLt
  have h1 : (i 1).val < 128 := (i 1).isLt
  obtain ⟨t, ht⟩ : ∃ t : Fin cfg0.N, t.val = (i 0).val / 8 := ⟨⟨(i 0).val / 8, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 8 ≤ (i 0).val ∧ (i 0).val < win0_7.index t (0 : Fin 2) * 8 + 8
    rw [e0, ht]; omega
  | ⟨1, _⟩ =>
    show win0_7.index t (1 : Fin 2) * 128 ≤ (i 1).val ∧ (i 1).val < win0_7.index t (1 : Fin 2) * 128 + 128
    rw [e1]; omega

/-- THE RESULT ARRAY after the run: the router's output for every token row, laid out 256 × 128. -/
theorem final7 (c : Dev nD) :
    (dats (F := Ideal) m 0 c).arrAt 7 cfg0.N
      = G256 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (dats (F := Ideal) m 0 c).arrAt_eq_of_cover 7 _ (fun t _ => flushed_eq m c t) cover

end Cert.KernelIdeal.HandValue

end
-- ==== Proof.KernelColumn.lean ====
/-
  The kernel program's result column.

  The pipeline leaves the probabilities in a [256,128] array, token row R at entry (R / 128, R % 128); the one host
  operation after the region reshapes it to the [32768,1] column the program returns. A reshape keeps row-major
  positions, and position R of the column is position 128 (R / 128) + R % 128 of the array: the column is the
  router function of the specification.
-/
import proofs.«117128_g3504693313599_cont_8to1_b_191_17_alg».proof.Proof.RunIdeal
import proofs.«117128_g3504693313599_cont_8to1_b_191_17_alg».proof.Proof.KernelValue
import Idealize.ShloMosaic.Lib.StableHlo.Run
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- After the reshape the column buffer holds the result array, recast. -/
theorem Wend_v7 (c : Dev nD) :
    Wend m c (Proc.devRef .tc main_v7)
      = (shapeCast S32768x1 ((dats (F := Ideal) m 0 c).arrAt 7 cfg0.N) shapeCasts_S256x128_S32768x1 : FVec Ideal S32768x1 .f32) := by
  unfold Wend
  dsimp only [hostOps1]
  after_results
  rw [Wexit_v6]
  rfl

/-- The [256,128] layout of the result, recast to a column, is the router function. -/
theorem column_eq (x : S32768x4096.Idx → EReal) (W1 : S4096x256.Idx → EReal) (b1 : S256.Idx → EReal)
    (W2 : S256x1.Idx → EReal) (b2 : S1.Idx → EReal) :
    (shapeCast S32768x1 (G256 x W1 b1 W2 b2) shapeCasts_S256x128_S32768x1 : S32768x1.Idx → EReal) = Cert.Router.G x W1 b1 W2 b2 := by
  funext i
  have h0 : (i 0).val < 32768 := idx2_lt0 i
  have h1 : (i 1).val < 1 := idx2_lt1 i
  rw [shapeCast_apply (G256 x W1 b1 W2 b2) shapeCasts_S256x128_S32768x1 i
    (ix2 (⟨(i 0).val / 128, by omega⟩ : Fin 256) (⟨(i 0).val % 128, by omega⟩ : Fin 128))
    (by rw [Shape.rowMajor_val_two, Shape.rowMajor_val_two]
        show (i 0).val / 128 * 128 + (i 0).val % 128 = (i 0).val * 1 + (i 1).val
        omega)]
  unfold G256 Cert.Router.G
  refine congrArg (Cert.Router.rowOut x W1 b1 W2 b2) (Fin.ext ?_)
  show (i 0).val / 128 * 128 + (i 0).val % 128 = (i 0).val
  omega

/-- In every final state of the frame run the result column is the router function of the launch arrays. -/
theorem result_eq (c : Dev nD) :
    Wend m c (Proc.devRef .tc main_v7)
      = Cert.Router.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [Wend_v7, final7]
  exact column_eq _ _ _ _ _

end Cert.KernelIdeal.HandValue

end
-- ==== Proof.RefIsG.lean ====
import proofs.«117128_g3504693313599_cont_8to1_b_191_17_alg».proof.Proof.Gen.ReferenceIdeal.Read
import proofs.«117128_g3504693313599_cont_8to1_b_191_17_alg».proof.Proof.RouterSpec
import Idealize.ShloMosaic.Lib.IdealHost

/-
  The reference program's result is the router function of the specification.

  Read one operation at a time at an index, the reference is: a contraction of row r of x against column j of W1
  over the 4096 features, plus b1[j], the maximum with zero, a contraction against W2's one column over the 256
  hidden units, plus b2[0], and 1 / (1 + exp (-·)) of that, which is the logistic function.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- The first contraction's left operand, read from the second contraction's left index, is x at (row, feature). -/
theorem lidx_v0_v6 (i : S32768x1.Idx) (j : Fin 256) (k : Fin 4096) :
    lidx_main_v0 (lidx_main_v6 i j) k = ix2 (⟨(i 0).val, idx2_lt0 i⟩ : Fin 32768) k :=
  funext fun a => Fin.ext (by match a with | ⟨0, _⟩ => rfl | ⟨1, _⟩ => rfl)

/-- The first contraction's right operand there is W1 at (feature, hidden unit). -/
theorem ridx_v0_v6 (i : S32768x1.Idx) (j : Fin 256) (k : Fin 4096) :
    ridx_main_v0 (lidx_main_v6 i j) k = ix2 k j :=
  funext fun a => Fin.ext (by match a with | ⟨0, _⟩ => rfl | ⟨1, _⟩ => rfl)

/-- The first bias, broadcast twice, is read at the hidden unit. -/
theorem idx_v1_v2_v6 (i : S32768x1.Idx) (j : Fin 256) :
    idx_main_v1 (idx_main_v2 (lidx_main_v6 i j)) = ix1 j :=
  funext fun a => Fin.ext (by match a with | ⟨0, _⟩ => rfl)

/-- The second contraction's right operand is W2 at (hidden unit, 0): the result has one column. -/
theorem ridx_v6 (i : S32768x1.Idx) (j : Fin 256) :
    ridx_main_v6 i j = ix2 j (0 : Fin 1) :=
  funext fun a => Fin.ext (by
    match a with
    | ⟨0, _⟩ => rfl
    | ⟨1, _⟩ => exact Nat.lt_one_iff.mp (idx2_lt1 i))

/-- The second bias, broadcast twice, is read at its one element. -/
theorem idx_v7_v8 (i : S32768x1.Idx) :
    idx_main_v7 (idx_main_v8 i) = ix1 (0 : Fin 1) :=
  funext fun a => Fin.ext (by match a with | ⟨0, _⟩ => rfl)

/-- The reference's result is the router function. -/
theorem val_eq_G (x0 : (⟨S32768x4096, .f32⟩ : BufTy).Contents (Elt Ideal)) (x1 : (⟨S4096x256, .f32⟩ : BufTy).Contents (Elt Ideal)) (x2 : (⟨S256, .f32⟩ : BufTy).Contents (Elt Ideal)) (x3 : (⟨S256x1, .f32⟩ : BufTy).Contents (Elt Ideal)) (x4 : (⟨S1, .f32⟩ : BufTy).Contents (Elt Ideal)) :
    Cert.ReferenceIdeal.Read.val_main_v15 (F := Ideal) x0 x1 x2 x3 x4 = Cert.Router.G x0 x1 x2 x3 x4 := by
  funext i
  rw [val_main_v15_apply, val_main_v14_apply, val_main_cst_1_apply, val_main_v13_apply, val_main_v12_apply,
    val_main_cst_0_apply, val_main_v11_apply, val_main_v10_apply, val_main_v9_apply, val_main_v6_apply,
    val_main_v8_apply, val_main_v7_apply]
  simp only [val_main_v5_apply, val_main_v3_apply, val_main_v0_apply, val_main_v2_apply, val_main_v1_apply,
    val_main_v4_apply, val_main_cst_apply, lidx_v0_v6, ridx_v0_v6, idx_v1_v2_v6, ridx_v6, idx_v7_v8,
    Ideal.hostDivf_def, Ideal.hostUnary_exp_def, Ideal.hostNegf_def, Ideal.negf_def, Ideal.addf_def, Ideal.maximumf_def,
    Ideal.ofBits_def, Ideal.ofBits_zero_f32, Ideal.ofBits_one_f32]
  rfl

end Cert.ReferenceIdeal.RefValue

end
-- ==== Proof.lean ====
/-
  The router kernel against its reference: sigmoid(relu(x W1 + b1) W2 + b2) over 32768 tokens.

  The three programs run to their ends with the argument arrays unchanged (the frames). Two of the kernel
  pipeline's windows read ONE array — the two column halves of x — so at the region's entry that array's buffer is
  dealt to them by halves of its full share (Proof/RunIdeal.lean for the idealized program, Proof/RunBits.lean for
  the program as printed). The idealization rewrote nothing, so its `preserves` claim is `True`. At the extended reals the kernel's result column is the router
  function of the arguments (Proof/KernelValue.lean: every [8,128] tile the pipeline writes back is the function's
  restriction; Proof/KernelColumn.lean: the reshape to a column), and so is the reference's (Proof/RefIsG.lean);
  the two contractions over 4096 features and over two halves of 2048 agree because a finite sum of extended
  reals may be regrouped (Proof/RouterSpec.lean), with no appeal to finiteness of the inputs.
-/
import proofs.«117128_g3504693313599_cont_8to1_b_191_17_alg».proof.Defs
import proofs.«117128_g3504693313599_cont_8to1_b_191_17_alg».proof.Proof.Gen.Kernel
import proofs.«117128_g3504693313599_cont_8to1_b_191_17_alg».proof.Proof.Gen.KernelIdeal
import proofs.«117128_g3504693313599_cont_8to1_b_191_17_alg».proof.Proof.Gen.ReferenceIdeal
import proofs.«117128_g3504693313599_cont_8to1_b_191_17_alg».proof.Proof.Gen.Pre_finite_inputs
import proofs.«117128_g3504693313599_cont_8to1_b_191_17_alg».proof.Proof.Gen.ReferenceIdeal.Run
import proofs.«117128_g3504693313599_cont_8to1_b_191_17_alg».proof.Proof.Gen.ReferenceIdeal.Read
import proofs.«117128_g3504693313599_cont_8to1_b_191_17_alg».proof.Proof.RunBits
import proofs.«117128_g3504693313599_cont_8to1_b_191_17_alg».proof.Proof.RunIdeal
import proofs.«117128_g3504693313599_cont_8to1_b_191_17_alg».proof.Proof.KernelColumn
import proofs.«117128_g3504693313599_cont_8to1_b_191_17_alg».proof.Proof.RefIsG
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the router function of the (agreeing) arguments in their result columns. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Router.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_)
      (Cert.KernelIdeal.Hand.run_main (F := Ideal) m ρ)
    have hf := Cert.KernelIdeal.Hand.args_kept (F := Ideal) m r h c
    exact ⟨((h c).2 Cert.KernelIdeal.main_v7 (Pipeline.mem_restRefs_of Cert.KernelIdeal.main_v7 (by decide) (by decide))).trans
      (Cert.KernelIdeal.HandValue.result_eq m c), hf⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.ReferenceIdeal.RefValue.val_eq_G,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
